-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S2x512x128 : Shape := ⟨3, ![2, 512, 128]⟩
abbrev S512x128 : Shape := ⟨2, ![512, 128]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S2x512x128 : S_.BroadcastsInDim S2x512x128 (![] : Fin 0 → Fin S2x512x128.rank)
  reducesTo_S2x512x128_S_d0_1_2 : S2x512x128.ReducesTo [0, 1, 2] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  main_v18

def fn {F : FTy → Type} [FloatOps F] (main_arg0 : FVec F S16x2048x512 .f32) (main_arg1 : FVec F S16x2048x512 .f32) (main_arg2 : FVec F S2x512x128 .f32) (main_arg3 : FVec F S512x128 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S2x512x128 .f32 := Host.absf main_arg2
  let main_cst_2 : FVec F S_ .f32 := constant S_ .f32 0x7F800000#32
  let main_v10 : FVec F S2x512x128 .f32 := broadcastInDim S2x512x128 ![] bcast_S_S2x512x128 main_cst_2
  let main_v11 : IVec S2x512x128 1 := cmpf .olt main_v9 main_v10
  let main_c_3 : IVec S_ 1 := constantI S_ 1 1#1
  let main_v12 : IVec S_ 1 := (fun x v => Host.reduce IntOp.andi x v reducesTo_S2x512x128_S_d0_1_2 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_v13 main_v16
-- ==== Kernel.lean ====
abbrev S16x2048x512 : Shape := ⟨3, ![16, 2048, 512]⟩
abbrev S2x512x128 : Shape := ⟨3, ![2, 512, 128]⟩
abbrev S512x128 : Shape := ⟨2, ![512, 128]⟩
abbrev S1x512x128 : Shape := ⟨3, ![1, 512, 128]⟩
abbrev S512x256 : Shape := ⟨2, ![512, 256]⟩
abbrev S16x2048x128 : Shape := ⟨3, ![16, 2048, 128]⟩
abbrev S16x2048x2048 : Shape := ⟨3, ![16, 2048, 2048]⟩
abbrev S1x2048x512 : Shape := ⟨3, ![1, 2048, 512]⟩
abbrev S1x512x512 : Shape := ⟨3, ![1, 512, 512]⟩
abbrev S1x512x2048 : Shape := ⟨3, ![1, 512, 2048]⟩
abbrev S2048x128 : Shape := ⟨2, ![2048, 128]⟩
abbrev S2048x512 : Shape := ⟨2, ![2048, 512]⟩
abbrev S2048x256 : Shape := ⟨2, ![2048, 256]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S2x512x128, .f32⟩
  | .hbm, ⟨3, _⟩ => ⟨S512x128, .f32⟩
  | .hbm, ⟨4, _⟩ => ⟨S1x512x128, .f32⟩
  | .hbm, ⟨5, _⟩ => ⟨S512x128, .f32⟩
  | .hbm, ⟨6, _⟩ => ⟨S1x512x128, .f32⟩
  | .hbm, ⟨7, _⟩ => ⟨S512x128, .f32⟩
  | .hbm, ⟨8, _⟩ => ⟨S512x256, .f32⟩
  | .hbm, ⟨9, _⟩ => ⟨S16x2048x128, .f32⟩
  | .hbm, ⟨10, _⟩ => ⟨S16x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S512x256, .f32⟩
  | .local _ .vmem, ⟨5, _⟩ => ⟨S512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x2048, .f32⟩
  | .local _ .vmem, ⟨9, _⟩ => ⟨S1x512x2048, .f32⟩
  | .local _ .vmem, ⟨10, _⟩ => ⟨S2048x128, .bf16⟩
  | .local _ .vmem, ⟨11, _⟩ => ⟨S2048x128, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2x512x128_S1x512x128_0_0_0 : S2x512x128.Slices ![0, 0, 0] S1x512x128
  shapeCasts_S1x512x128_S512x128 : S1x512x128.ShapeCasts S512x128
  slices_S2x512x128_S1x512x128_1_0_0 : S2x512x128.Slices ![1, 0, 0] S1x512x128
  concatenates_S512x128_S512x128_S512x256_d1 : Shape.Concatenates [S512x128, S512x128] S512x256 1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S2048x256_o0_0_S2048x128 : S2048x256.Slices ![0, 0] S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  slices_S2048x256_o0_128_S2048x128 : S2048x256.Slices ![0, 128] S2048x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x128_S512x128_0_0 : ∀ a, (![0, 0] : Fin 2 → Nat) a + S512x128.size a ≤ S512x128.size a
  h_S512x128 : 0 < S512x128.numel
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x512x128_S1x512x128_0_0_0 : ∀ a, (![0, 0, 0] : Fin 3 → Nat) a + S1x512x128.size a ≤ S1x512x128.size a
  h_S1x512x128 : 0 < S1x512x128.numel
  shapeCasts_S512x128_S1x512x128 : S512x128.ShapeCasts S1x512x128
  dot_S2048x512_S512x256_S2048x256_1_0_0_1_n_n_wf : DotDims.WF S2048x512 S512x256 S2048x256 [1] [0] [0] [1] [] []
  dot_S512x512_S512x128_S512x128_1_0_0_1_n_n_wf : DotDims.WF S512x512 S512x128 S512x128 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x2048x512.size a
  hwx0_0 : ∀ i : grid0.Coords, EltTy.bits .f32 = 32 ∨ (Rect.block (s := S16x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x2048x512.size a
  hwx0_1 : ∀ i : grid0.Coords, EltTy.bits .f32 = 32 ∨ (Rect.block (s := S16x2048x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S16x2048x128.size a
  hwx0_4 : ∀ i : grid0.Coords, EltTy.bits .f32 = 32 ∨ (Rect.block (s := S16x2048x128) S1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S2x512x128 : Shape := ⟨3, ![2, 512, 128]⟩
abbrev S512x128 : Shape := ⟨2, ![512, 128]⟩
abbrev S16x2048x128 : Shape := ⟨3, ![16, 2048, 128]⟩
abbrev S1x512x128 : Shape := ⟨3, ![1, 512, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S2x512x128, .f32⟩
  | .hbm, ⟨3, _⟩ => ⟨S512x128, .f32⟩
  | .hbm, ⟨4, _⟩ => ⟨S16x2048x128, .f32⟩
  | .hbm, ⟨5, _⟩ => ⟨S1x512x128, .f32⟩
  | .hbm, ⟨6, _⟩ => ⟨S512x128, .f32⟩
  | .hbm, ⟨7, _⟩ => ⟨S16x2048x128, .f32⟩
  | .hbm, ⟨8, _⟩ => ⟨S1x512x128, .f32⟩
  | .hbm, ⟨9, _⟩ => ⟨S512x128, .f32⟩
  | .hbm, ⟨10, _⟩ => ⟨S16x2048x128, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S_, .f32⟩
  | .hbm, ⟨18, _⟩ => ⟨S16x2048, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x128, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x512x128_S1x512x128_0_0_0 : S2x512x128.Slices ![0, 0, 0] S1x512x128
  shapeCasts_S1x512x128_S512x128 : S1x512x128.ShapeCasts S512x128
  slices_S2x512x128_S1x512x128_1_0_0 : S2x512x128.Slices ![1, 0, 0] S1x512x128
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x512_S512x128_S16x2048x128_2_0_01_1_n_n_wf : DotDims.WF S16x2048x512 S512x128 S16x2048x128 [2] [0] [0, 1] [1] [] []
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x512_S512x128_S16x2048x128_2_0_01_1_n_n : DotDims S16x2048x512 S512x128 S16x2048x128 where
  lhsContracting := [2]
  rhsContracting := [0]
  lhsNonContracting := [0, 1]
  rhsNonContracting := [1]
  lhsBatch := []
  rhsBatch := []
  wf := dot_S16x2048x512_S512x128_S16x2048x128_2_0_01_1_n_n_wf
def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Spec.lean ====
/-
  The mathematics both programs compute, stated once over the four argument arrays and no program.

  For a batch `b`: keys and values are the rows of `Lt[b]` projected by the two halves of `kernel`, queries the rows
  of `rnn_ht[b]` projected by `W`. The score of query row `r` against key row `k` is their inner product over the
  128 features, times one fixed scale. A row of scores becomes a row of weights by the usual softmax: subtract the
  row's maximum, exponentiate, divide by the row's sum. The context of a query row is the weighted sum of the value
  rows. Everything is over the extended reals; a finite sum there does not depend on its order or grouping, so the
  statement says nothing about tiles.

  The row operations (`scoreRow`, `softmaxRow`, `attendRow`) take a query row and key / value matrices as plain
  functions, so that a tile of the kernel and a slab of the reference can both be read as instances of them.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The score scale: the binary32 value nearest 1/√128. Both programs carry the same word, so it is never evaluated. -/
abbrev scale : EReal := Ideal.ofBits .f32 0x3DB504F3#32

/-- The value a row maximum starts from: the binary32 word of −∞. -/
abbrev negInf : EReal := Ideal.ofBits .f32 0xFF800000#32

/-! ## One query row against a key matrix and a value matrix -/

/-- The scaled inner products of a query row with every key row. -/
def scoreRow (q : Fin 128 → EReal) (K : Fin 2048 → Fin 128 → EReal) (k : Fin 2048) : EReal :=
  (∑ d : Fin 128, q d * K k d) * scale

/-- A row's maximum, taken from −∞. -/
def rowMax (s : Fin 2048 → EReal) : EReal := (Finset.univ : Finset (Fin 2048)).fold max negInf s

/-- The exponential of a score less the row's maximum. -/
def expRow (s : Fin 2048 → EReal) (k : Fin 2048) : EReal := Ideal.exp (s k - rowMax s)

/-- Softmax of a row: each exponential over the row's sum of exponentials. -/
def softmaxRow (s : Fin 2048 → EReal) (k : Fin 2048) : EReal :=
  Ideal.div (expRow s k) (∑ k' : Fin 2048, expRow s k')

/-- A row of weights applied to a value matrix. -/
def attendRow (w : Fin 2048 → EReal) (V : Fin 2048 → Fin 128 → EReal) (d : Fin 128) : EReal :=
  ∑ k : Fin 2048, w k * V k d

/-- A row maximum taken from −∞ is at least −∞, so taking the maximum with −∞ once more changes nothing. -/
theorem max_negInf_rowMax (s : Fin 2048 → EReal) : max negInf (rowMax s) = rowMax s :=
  max_eq_right ((Finset.le_fold_max _).mpr (Or.inl le_rfl))

/-! ## The three projections, and the two results as whole arrays -/

section Arrays

variable (Lt rnn : FVec Ideal ⟨3, ![16, 2048, 512]⟩ .f32) (kern : FVec Ideal ⟨3, ![2, 512, 128]⟩ .f32)
  (W : FVec Ideal ⟨2, ![512, 128]⟩ .f32)

/-- Key row `k` of batch `b`: row `k` of `Lt[b]` through the first half of `kernel`. -/
def keyProj (b : Fin 16) (k : Fin 2048) (d : Fin 128) : EReal :=
  ∑ l : Fin 512, Lt (ix3 b k l) * kern (ix3 (0 : Fin 2) l d)

/-- Value row `k` of batch `b`: the same row through the second half of `kernel`. -/
def valProj (b : Fin 16) (k : Fin 2048) (d : Fin 128) : EReal :=
  ∑ l : Fin 512, Lt (ix3 b k l) * kern (ix3 (1 : Fin 2) l d)

/-- Query row `r` of batch `b`: row `r` of `rnn_ht[b]` through `W`. -/
def qryProj (b : Fin 16) (r : Fin 2048) (d : Fin 128) : EReal :=
  ∑ h : Fin 512, rnn (ix3 b r h) * W (ix2 h d)

/-- The attention weight of query row `r` on key row `k`, in batch `b`. -/
def weightAt (b : Fin 16) (r k : Fin 2048) : EReal :=
  softmaxRow (scoreRow (qryProj rnn W b r) (keyProj Lt kern b)) k

/-- The context of query row `r` in batch `b`. -/
def contextAt (b : Fin 16) (r : Fin 2048) (d : Fin 128) : EReal :=
  attendRow (softmaxRow (scoreRow (qryProj rnn W b r) (keyProj Lt kern b))) (valProj Lt kern b) d

/-- The weights result, as one array. -/
def weights : FVec Ideal ⟨3, ![16, 2048, 2048]⟩ .f32 := fun i => weightAt Lt rnn kern W (i 0) (i 1) (i 2)

/-- The context result, as one array. -/
def contexts : FVec Ideal ⟨3, ![16, 2048, 128]⟩ .f32 := fun i => contextAt Lt rnn kern W (i 0) (i 1) (i 2)

theorem weights_apply (b : Fin 16) (r k : Fin 2048) :
    weights Lt rnn kern W (ix3 b r k) = weightAt Lt rnn kern W b r k := rfl

theorem contexts_apply (b : Fin 16) (r : Fin 2048) (d : Fin 128) :
    contexts Lt rnn kern W (ix3 b r d) = contextAt Lt rnn kern W b r d := rfl

end Arrays

end Cert.Attn

end
-- ==== Proof.RefIsSpec.lean ====
/-
  The reference computes the specification.

  Its program is read one operation at a time. Each stage, at an index written by coordinates, is the matching
  quantity of the specification: the three matrix products are the three projections (the two halves of `kernel`
  are slab 0 and slab 1 of its leading axis, reached through a slice and a reshape that keep the row-major position);
  the batched product of queries with keys, scaled, is a row of scores; the reduction by maximum is the fold of `max`
  from −∞ over the key axis, and the further maximum with −∞ the reference takes changes nothing; the sum from zero is
  the plain sum; and the last batched product is the weighted sum of value rows.
-/
import proofs.«155520_j72541997629749_2_alg».proof.Proof.Gen.ReferenceIdeal.Read
import proofs.«155520_j72541997629749_2_alg».proof.Proof.Spec

noncomputable section

namespace Cert.ReferenceIdeal.RefValue

open Cert.ReferenceIdeal Cert.ReferenceIdeal.Gen Cert.ReferenceIdeal.Read Cert.Attn Idealize.ShloMosaic Idealize.ShloMosaic.ValueIdx

variable (x0 x1 : (⟨S16x2048x512, .f32⟩ : BufTy).Contents (Elt Ideal)) (x2 : (⟨S2x512x128, .f32⟩ : BufTy).Contents (Elt Ideal))
  (x3 : (⟨S512x128, .f32⟩ : BufTy).Contents (Elt Ideal))

/-! ## The operand indices of each product and reduction, by coordinates -/

theorem lidx_v0 (b : Fin 16) (r : Fin 2048) (d : Fin 128) (h : Fin 512) : lidx_main_v0 (ix3 b r d) h = ix3 b r h :=
  funext fun a => Fin.ext (by match a with | ⟨0, _⟩ => rfl | ⟨1, _⟩ => rfl | ⟨2, _⟩ => rfl)
theorem ridx_v0 (b : Fin 16) (r : Fin 2048) (d : Fin 128) (h : Fin 512) : ridx_main_v0 (ix3 b r d) h = ix2 h d :=
  funext fun a => Fin.ext (by match a with | ⟨0, _⟩ => rfl | ⟨1, _⟩ => rfl)
theorem lidx_v3 (b : Fin 16) (k : Fin 2048) (d : Fin 128) (l : Fin 512) : lidx_main_v3 (ix3 b k d) l = ix3 b k l :=
  funext fun a => Fin.ext (by match a with | ⟨0, _⟩ => rfl | ⟨1, _⟩ => rfl | ⟨2, _⟩ => rfl)
theorem ridx_v3 (b : Fin 16) (k : Fin 2048) (d : Fin 128) (l : Fin 512) : ridx_main_v3 (ix3 b k d) l = ix2 l d :=
  funext fun a => Fin.ext (by match a with | ⟨0, _⟩ => rfl | ⟨1, _⟩ => rfl)
theorem lidx_v6 (b : Fin 16) (k : Fin 2048) (d : Fin 128) (l : Fin 512) : lidx_main_v6 (ix3 b k d) l = ix3 b k l :=
  funext fun a => Fin.ext (by match a with | ⟨0, _⟩ => rfl | ⟨1, _⟩ => rfl | ⟨2, _⟩ => rfl)
theorem ridx_v6 (b : Fin 16) (k : Fin 2048) (d : Fin 128) (l : Fin 512) : ridx_main_v6 (ix3 b k d) l = ix2 l d :=
  funext fun a => Fin.ext (by match a with | ⟨0, _⟩ => rfl | ⟨1, _⟩ => rfl)
theorem lidx_v7 (b : Fin 16) (r k : Fin 2048) (d : Fin 128) : lidx_main_v7 (ix3 b r k) d = ix3 b r d :=
  funext fun a => Fin.ext (by match a with | ⟨0, _⟩ => rfl | ⟨1, _⟩ => rfl | ⟨2, _⟩ => rfl)
theorem ridx_v7 (b : Fin 16) (r k : Fin 2048) (d : Fin 128) : ridx_main_v7 (ix3 b r k) d = ix3 b k d :=
  funext fun a => Fin.ext (by match a with | ⟨0, _⟩ => rfl | ⟨1, _⟩ => rfl | ⟨2, _⟩ => rfl)
theorem lidx_v21 (b : Fin 16) (r : Fin 2048) (d : Fin 128) (k : Fin 2048) : lidx_main_v21 (ix3 b r d) k = ix3 b r k :=
  funext fun a => Fin.ext (by match a with | ⟨0, _⟩ => rfl | ⟨1, _⟩ => rfl | ⟨2, _⟩ => rfl)
theorem ridx_v21 (b : Fin 16) (r : Fin 2048) (d : Fin 128) (k : Fin 2048) : ridx_main_v21 (ix3 b r d) k = ix3 b k d :=
  funext fun a => Fin.ext (by match a with | ⟨0, _⟩ => rfl | ⟨1, _⟩ => rfl | ⟨2, _⟩ => rfl)
theorem idx_v17 (b : Fin 16) (r k : Fin 2048) : idx_main_v17 (ix2 b r) k = ix3 b r k :=
  funext fun a => Fin.ext (by match a with | ⟨0, _⟩ => rfl | ⟨1, _⟩ => rfl | ⟨2, _⟩ => rfl)
theorem idx_v13_v14 (b : Fin 16) (r k : Fin 2048) : idx_main_v13 (idx_main_v14 (ix3 b r k)) = ix2 b r :=
  funext fun a => Fin.ext (by match a with | ⟨0, _⟩ => rfl | ⟨1, _⟩ => rfl)
theorem idx_v18_v19 (b : Fin 16) (r k : Fin 2048) : idx_main_v18 (idx_main_v19 (ix3 b r k)) = ix2 b r :=
  funext fun a => Fin.ext (by match a with | ⟨0, _⟩ => rfl | ⟨1, _⟩ => rfl)
/-- The index a reduction over the key axis inserts coordinate `k` at. -/
theorem lift_keys (h : S16x2048x2048.Reduces [2] S16x2048) (b : Fin 16) (r k : Fin 2048) : h.lift (ix2 b r) k = ix3 b r k :=
  funext fun a => Fin.ext (by match a with | ⟨0, _⟩ => rfl | ⟨1, _⟩ => rfl | ⟨2, _⟩ => rfl)

/-! ## The stages -/

/-- The first matrix product is the query projection. -/
theorem v0_at (b : Fin 16) (r : Fin 2048) (d : Fin 128) :
    val_main_v0 (F := Ideal) x1 x3 (ix3 b r d) = qryProj x1 x3 b r d := by
  rw [val_main_v0_apply]; unfold qryProj
  exact Finset.sum_congr rfl fun h _ => by rw [lidx_v0, ridx_v0]

/-- Slab 0 of `kernel`, sliced and reshaped to a matrix, read at (l, d). -/
theorem v2_at (l : Fin 512) (d : Fin 128) : val_main_v2 (F := Ideal) x2 (ix2 l d) = x2 (ix3 (0 : Fin 2) l d) := by
  rw [val_main_v2_apply, val_main_v1_apply]
  refine congrArg x2 (funext fun a => Fin.ext ?_)
  have hl := l.isLt; have hd := d.isLt
  match a with
  | ⟨0, _⟩ => rfl
  | ⟨1, _⟩ => show (l.val * 128 + d.val) / 128 % 512 = l.val; omega
  | ⟨2, _⟩ => show (l.val * 128 + d.val) % 128 = d.val; omega

/-- Slab 1 likewise. -/
theorem v5_at (l : Fin 512) (d : Fin 128) : val_main_v5 (F := Ideal) x2 (ix2 l d) = x2 (ix3 (1 : Fin 2) l d) := by
  rw [val_main_v5_apply, val_main_v4_apply]
  refine congrArg x2 (funext fun a => Fin.ext ?_)
  have hl := l.isLt; have hd := d.isLt
  match a with
  | ⟨0, _⟩ => rfl
  | ⟨1, _⟩ => show (l.val * 128 + d.val) / 128 % 512 = l.val; omega
  | ⟨2, _⟩ => show (l.val * 128 + d.val) % 128 = d.val; omega

/-- The second matrix product is the key projection. -/
theorem v3_at (b : Fin 16) (k : Fin 2048) (d : Fin 128) :
    val_main_v3 (F := Ideal) x0 x2 (ix3 b k d) = keyProj x0 x2 b k d := by
  rw [val_main_v3_apply]; unfold keyProj
  exact Finset.sum_congr rfl fun l _ => by rw [lidx_v3, ridx_v3, v2_at]

/-- The third is the value projection. -/
theorem v6_at (b : Fin 16) (k : Fin 2048) (d : Fin 128) :
    val_main_v6 (F := Ideal) x0 x2 (ix3 b k d) = valProj x0 x2 b k d := by
  rw [val_main_v6_apply]; unfold valProj
  exact Finset.sum_congr rfl fun l _ => by rw [lidx_v6, ridx_v6, v5_at]

/-- Queries against keys, batch by batch, times the scale: a row of scores. -/
theorem v9_at (b : Fin 16) (r k : Fin 2048) :
    val_main_v9 (F := Ideal) x0 x1 x2 x3 (ix3 b r k) = scoreRow (qryProj x1 x3 b r) (keyProj x0 x2 b) k := by
  rw [val_main_v9_apply, val_main_v7_apply, val_main_v8_apply, val_main_cst_apply]
  unfold scoreRow
  simp only [Ideal.mulf_def, Ideal.ofBits_def]
  refine congrArg (· * scale) (Finset.sum_congr rfl fun d _ => ?_)
  rw [lidx_v7, ridx_v7, v0_at, v3_at]

/-- The reduction by maximum over the key axis is the row maximum from −∞. -/
theorem v10_at (b : Fin 16) (r : Fin 2048) :
    val_main_v10 (F := Ideal) x0 x1 x2 x3 (ix2 b r) = rowMax (scoreRow (qryProj x1 x3 b r) (keyProj x0 x2 b)) := by
  unfold val_main_v10
  generalize hy : val_main_v9 (F := Ideal) x0 x1 x2 x3 = y
  refine (Host.reduce_eq_fold_single (FloatOps.maximumf (F := Ideal) (φ := .f32)) y _ reducesTo_S16x2048x2048_S16x2048_d2
    (by decide) h_S_ (ix2 b r)).trans ?_
  unfold rowMax
  refine Finset.fold_congr fun k _ => ?_
  exact (congrArg y (lift_keys _ b r k)).trans ((congrFun hy.symm (ix3 b r k)).trans (v9_at x0 x1 x2 x3 b r k))

/-- The maximum with −∞ that follows it changes nothing. -/
theorem v12_at (b : Fin 16) (r : Fin 2048) :
    val_main_v12 (F := Ideal) x0 x1 x2 x3 (ix2 b r) = rowMax (scoreRow (qryProj x1 x3 b r) (keyProj x0 x2 b)) := by
  rw [val_main_v12_apply, val_main_v11_apply, val_main_cst_1_apply, v10_at]
  exact max_negInf_rowMax _

/-- The exponentials of the scores less the row's maximum. -/
theorem v16_at (b : Fin 16) (r k : Fin 2048) :
    val_main_v16 (F := Ideal) x0 x1 x2 x3 (ix3 b r k) = expRow (scoreRow (qryProj x1 x3 b r) (keyProj x0 x2 b)) k := by
  rw [val_main_v16_apply, val_main_v15_apply, val_main_v14_apply, val_main_v13_apply, v9_at, idx_v13_v14, v12_at]
  rfl

/-- Their sum from zero is their sum. -/
theorem v17_at (b : Fin 16) (r : Fin 2048) :
    val_main_v17 (F := Ideal) x0 x1 x2 x3 (ix2 b r) = ∑ k : Fin 2048, expRow (scoreRow (qryProj x1 x3 b r) (keyProj x0 x2 b)) k := by
  rw [val_main_v17_apply, val_main_cst_2_apply, Ideal.ofBits_def, Ideal.ofBits_zero_f32, zero_add]
  exact Finset.sum_congr rfl fun k _ => by rw [idx_v17, v16_at]

/-- The quotient is the softmax weight. -/
theorem v20_at (b : Fin 16) (r k : Fin 2048) :
    val_main_v20 (F := Ideal) x0 x1 x2 x3 (ix3 b r k) = softmaxRow (scoreRow (qryProj x1 x3 b r) (keyProj x0 x2 b)) k := by
  rw [val_main_v20_apply, val_main_v19_apply, val_main_v18_apply, v16_at, idx_v18_v19, v17_at]
  rfl

/-- The last product is the weighted sum of value rows. -/
theorem v21_at (b : Fin 16) (r : Fin 2048) (d : Fin 128) :
    val_main_v21 (F := Ideal) x0 x1 x2 x3 (ix3 b r d)
      = attendRow (softmaxRow (scoreRow (qryProj x1 x3 b r) (keyProj x0 x2 b))) (valProj x0 x2 b) d := by
  rw [val_main_v21_apply]; unfold attendRow
  exact Finset.sum_congr rfl fun k _ => by rw [lidx_v21, ridx_v21, v20_at, v6_at]

/-! ## The two results -/

/-- The reference's weights result is the specification's. -/
theorem weights_eq : val_main_v20 (F := Ideal) x0 x1 x2 x3 = weights x0 x1 x2 x3 := by
  funext i
  obtain ⟨b, r, k, rfl⟩ : ∃ (b : Fin 16) (r k : Fin 2048), i = ix3 b r k := ⟨i 0, i 1, i 2, eq_ix3 i⟩
  rw [v20_at]; rfl

/-- The reference's context result is the specification's. -/
theorem contexts_eq : val_main_v21 (F := Ideal) x0 x1 x2 x3 = contexts x0 x1 x2 x3 := by
  funext i
  obtain ⟨b, r, d, rfl⟩ : ∃ (b : Fin 16) (r : Fin 2048) (d : Fin 128), i = ix3 b r d := ⟨i 0, i 1, i 2, eq_ix3 i⟩
  rw [v21_at]; rfl

end Cert.ReferenceIdeal.RefValue

end
-- ==== Proof.Pieces.lean ====
/-
  What one run of the body leaves behind, as values.

  The body has two cases. At the first query tile of a batch it first projects the whole of `Lt[b]` through the
  concatenated weight, stores the left half of the product as the keys and the right half as the values, and then
  attends with what it has just stored. At the other tiles it stores no keys or values and attends with the ones the
  previous tile left. In both cases the attention part is the same function of the query tile, `W`, the keys and
  the values; only where the keys and values come from differs.

  Each output and each carried buffer is written by one store over the whole of it, and each load reads the whole of
  its buffer, so what is left is that store's value with every load replaced by the buffer's contents.
-/
import proofs.«155520_j72541997629749_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a batch: keys and values are computed, stored, and used -/

/-- The keys it stores: the left half of `Lt[b]` times the concatenated weight. -/
theorem keys_first (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x2048x512 .f32) (x1 : Vec F S1x512x512 .f32) (x2 : Vec F S512x256 .f32) (x3 : Vec F S512x128 .f32) :
    sout0_A_0 c i arg2 harg2 arg3 harg3 arg4 harg4 arg5 harg5 arg6 harg6 arg7 harg7 arg8 harg8 arg9 harg9 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, harg4.read_unread, harg5.read_unread, harg8.read_unread, harg9.read_unread,
    View.ld_unit_zero (S := S1x2048x512) hz3, View.ld_unit_zero (S := S1x512x512) hz3, View.ld_unit_zero (S := S512x256) hz2,
    View.ld_unit_zero (S := S512x128) hz2, View.ld_unit_zero (S := S2048x128) hz2]

/-- The values it stores: the right half. -/
theorem vals_first (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x2048x512 .f32) (x1 : Vec F S1x512x512 .f32) (x2 : Vec F S512x256 .f32) (x3 : Vec F S512x128 .f32) :
    sout0_A_1 c i arg2 harg2 arg3 harg3 arg4 harg4 arg5 harg5 arg6 harg6 arg7 harg7 arg8 harg8 arg9 harg9 hc0 x0 x1 x2 x3 = k0_pay3 x0 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, harg4.read_unread, harg5.read_unread, harg8.read_unread, harg9.read_unread,
    View.ld_unit_zero (S := S1x2048x512) hz3, View.ld_unit_zero (S := S1x512x512) hz3, View.ld_unit_zero (S := S512x256) hz2,
    View.ld_unit_zero (S := S512x128) hz2, View.ld_unit_zero (S := S2048x128) hz2]

/-- The weights block it writes: softmax of the query tile against the keys just stored. -/
theorem weights_first (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x2048x512 .f32) (x1 : Vec F S1x512x512 .f32) (x2 : Vec F S512x256 .f32) (x3 : Vec F S512x128 .f32) :
    out0_A_5 c i arg2 harg2 arg3 harg3 arg4 harg4 arg5 harg5 arg6 harg6 arg7 harg7 arg8 harg8 arg9 harg9 hc0 x0 x1 x2 x3 = k0_pay5 x1 x3 (k0_pay2 x0 x2) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readCov_unit_zero (S := S2048x128) _ hz2, View.readAt_eq_ld, harg2.read_unread, harg3.read_unread, harg4.read_unread, harg5.read_unread, harg8.read_unread, harg9.read_unread,
    View.ld_unit_zero (S := S1x2048x512) hz3, View.ld_unit_zero (S := S1x512x512) hz3, View.ld_unit_zero (S := S512x256) hz2,
    View.ld_unit_zero (S := S512x128) hz2, View.ld_unit_zero (S := S2048x128) hz2]

/-- The context block it writes: those weights applied to the values just stored. -/
theorem context_first (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x2048x512 .f32) (x1 : Vec F S1x512x512 .f32) (x2 : Vec F S512x256 .f32) (x3 : Vec F S512x128 .f32) :
    out0_A_4 c i arg2 harg2 arg3 harg3 arg4 harg4 arg5 harg5 arg6 harg6 arg7 harg7 arg8 harg8 arg9 harg9 hc0 x0 x1 x2 x3 = k0_pay6 x1 x3 (k0_pay2 x0 x2) (k0_pay3 x0 x2) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readCov_unit_zero (S := S2048x128) _ hz2, View.readAt_eq_ld, harg2.read_unread, harg3.read_unread, harg4.read_unread, harg5.read_unread, harg8.read_unread, harg9.read_unread,
    View.ld_unit_zero (S := S1x2048x512) hz3, View.ld_unit_zero (S := S1x512x512) hz3, View.ld_unit_zero (S := S512x256) hz2,
    View.ld_unit_zero (S := S512x128) hz2, View.ld_unit_zero (S := S2048x128) hz2]

/-! ## The other tiles: keys and values are the ones the previous tile left -/

/-- The weights block: softmax of the query tile against the carried keys. -/
theorem weights_later (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : ¬cond0_0 i)
    (x0 : Vec F S1x2048x512 .f32) (x1 : Vec F S1x512x512 .f32) (x2 : Vec F S512x256 .f32) (x3 : Vec F S512x128 .f32) (xs0 : Vec F S2048x128 .bf16) (xs1 : Vec F S2048x128 .bf16) :
    out0_B_5 c i arg2 harg2 arg3 harg3 arg4 harg4 arg5 harg5 arg6 harg6 arg7 harg7 arg8 harg8 arg9 harg9 hc0 x0 x1 x2 x3 xs0 xs1 = k0_pay5 x1 x3 xs0 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  rw [View.canon_unit_zero hz3]
  simp only [View.readAt_eq_ld, harg2.read_unread, harg3.read_unread, harg4.read_unread, harg5.read_unread, harg8.read_unread, harg9.read_unread,
    View.ld_unit_zero (S := S1x2048x512) hz3, View.ld_unit_zero (S := S1x512x512) hz3, View.ld_unit_zero (S := S512x256) hz2,
    View.ld_unit_zero (S := S512x128) hz2, View.ld_unit_zero (S := S2048x128) hz2]

/-- The context block: those weights applied to the carried values. -/
theorem context_later (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : ¬cond0_0 i)
    (x0 : Vec F S1x2048x512 .f32) (x1 : Vec F S1x512x512 .f32) (x2 : Vec F S512x256 .f32) (x3 : Vec F S512x128 .f32) (xs0 : Vec F S2048x128 .bf16) (xs1 : Vec F S2048x128 .bf16) :
    out0_B_4 c i arg2 harg2 arg3 harg3 arg4 harg4 arg5 harg5 arg6 harg6 arg7 harg7 arg8 harg8 arg9 harg9 hc0 x0 x1 x2 x3 xs0 xs1 = k0_pay6 x1 x3 xs0 xs1 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  rw [View.canon_unit_zero hz3]
  simp only [View.readAt_eq_ld, harg2.read_unread, harg3.read_unread, harg4.read_unread, harg5.read_unread, harg8.read_unread, harg9.read_unread,
    View.ld_unit_zero (S := S1x2048x512) hz3, View.ld_unit_zero (S := S1x512x512) hz3, View.ld_unit_zero (S := S512x256) hz2,
    View.ld_unit_zero (S := S512x128) hz2, View.ld_unit_zero (S := S2048x128) hz2]

end Cert.KernelIdeal.Pieces

end
-- ==== Proof.MatMul.lean ====
/-
  The body's four matrix products, each read at one entry of its result.

  Over the extended reals a product into a zero accumulator is, at entry (r, c), the plain sum over the contracted
  index of the two operands' entries there: row r of the left operand against column c of the right, or, for the
  product of queries with keys, against ROW c of the right, whose contracted axis is its second.
  In each case the record's operand indices are identified coordinate by coordinate: a kept axis copies the result's
  coordinate, the contracted axis carries the summation index.
-/
import proofs.«155520_j72541997629749_2_alg».proof.Proof.Gen.KernelIdeal
import Idealize.ShloMosaic.PureOps.Ideal.Laws
import Idealize.ShloMosaic.Lib.ValueIdx

noncomputable section

namespace Cert.KernelIdeal.MatMul

open Cert.KernelIdeal Cert.KernelIdeal.Gen Idealize.ShloMosaic Idealize.ShloMosaic.ValueIdx

/-! ## `Lt[b]` (2048 × 512) times the concatenated weight (512 × 256) -/

theorem kv_lhs0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
theorem kv_lhs1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem kv_rhs0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem kv_rhs1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- Entry (k, e) of the joint key/value product: row k of the block against column e of the weight. -/
theorem kv_apply (a : FVec Ideal S2048x512 .bf16) (w : FVec Ideal S512x256 .bf16) (k : Fin 2048) (e : Fin 256) :
    matmul dot_S2048x512_S512x256_S2048x256_1_0_0_1_n_n none a w (constant (F := Ideal) S2048x256 .f32 0x00000000#32) (ix2 k e)
      = ∑ l : Fin 512, a (ix2 k l) * w (ix2 l e) := by
  refine (Ideal.matmul_constant_zero_apply dot_S2048x512_S512x256_S2048x256_1_0_0_1_n_n none a w (ix2 k e)).trans ?_
  rw [← Equiv.sum_comp (ValueIdx.contrEquiv1 dot_S2048x512_S512x256_S2048x256_1_0_0_1_n_n 512 rfl rfl).symm]
  refine Finset.sum_congr rfl fun l _ => ?_
  have hk := ValueIdx.contrEquiv1_symm_val dot_S2048x512_S512x256_S2048x256_1_0_0_1_n_n 512 rfl rfl l
  have el : dot_S2048x512_S512x256_S2048x256_1_0_0_1_n_n.lhsIdx (ix2 k e)
      ((ValueIdx.contrEquiv1 dot_S2048x512_S512x256_S2048x256_1_0_0_1_n_n 512 rfl rfl).symm l) = ix2 k l :=
    funext fun ax => Fin.ext (by
      match ax with
      | ⟨0, _⟩ => exact kv_lhs0 _ _
      | ⟨1, _⟩ => exact (kv_lhs1 _ _).trans hk)
  have er : dot_S2048x512_S512x256_S2048x256_1_0_0_1_n_n.rhsIdx (ix2 k e)
      ((ValueIdx.contrEquiv1 dot_S2048x512_S512x256_S2048x256_1_0_0_1_n_n 512 rfl rfl).symm l) = ix2 l e :=
    funext fun ax => Fin.ext (by
      match ax with
      | ⟨0, _⟩ => exact (kv_rhs0 _ _).trans hk
      | ⟨1, _⟩ => exact kv_rhs1 _ _)
  rw [el, er]

/-! ## A query tile (512 × 512) times `W` (512 × 128) -/

theorem q_lhs0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl
theorem q_lhs1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem q_rhs0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem q_rhs1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

/-- Entry (p, d) of the query product: row p of the tile against column d of `W`. -/
theorem q_apply (a : FVec Ideal S512x512 .bf16) (w : FVec Ideal S512x128 .bf16) (p : Fin 512) (d : Fin 128) :
    matmul dot_S512x512_S512x128_S512x128_1_0_0_1_n_n none a w (constant (F := Ideal) S512x128 .f32 0x00000000#32) (ix2 p d)
      = ∑ h : Fin 512, a (ix2 p h) * w (ix2 h d) := by
  refine (Ideal.matmul_constant_zero_apply dot_S512x512_S512x128_S512x128_1_0_0_1_n_n none a w (ix2 p d)).trans ?_
  rw [← Equiv.sum_comp (ValueIdx.contrEquiv1 dot_S512x512_S512x128_S512x128_1_0_0_1_n_n 512 rfl rfl).symm]
  refine Finset.sum_congr rfl fun h _ => ?_
  have hk := ValueIdx.contrEquiv1_symm_val dot_S512x512_S512x128_S512x128_1_0_0_1_n_n 512 rfl rfl h
  have el : dot_S512x512_S512x128_S512x128_1_0_0_1_n_n.lhsIdx (ix2 p d)
      ((ValueIdx.contrEquiv1 dot_S512x512_S512x128_S512x128_1_0_0_1_n_n 512 rfl rfl).symm h) = ix2 p h :=
    funext fun ax => Fin.ext (by
      match ax with
      | ⟨0, _⟩ => exact q_lhs0 _ _
      | ⟨1, _⟩ => exact (q_lhs1 _ _).trans hk)
  have er : dot_S512x512_S512x128_S512x128_1_0_0_1_n_n.rhsIdx (ix2 p d)
      ((ValueIdx.contrEquiv1 dot_S512x512_S512x128_S512x128_1_0_0_1_n_n 512 rfl rfl).symm h) = ix2 h d :=
    funext fun ax => Fin.ext (by
      match ax with
      | ⟨0, _⟩ => exact (q_rhs0 _ _).trans hk
      | ⟨1, _⟩ => exact q_rhs1 _ _)
  rw [el, er]

/-! ## Queries (512 × 128) against keys (2048 × 128), both contracted along their second axis -/

theorem s_lhs0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
theorem s_lhs1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem s_rhs0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl
theorem s_rhs1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- Entry (p, k) of the score product: query row p against key ROW k. -/
theorem s_apply (a : FVec Ideal S512x128 .bf16) (w : FVec Ideal S2048x128 .bf16) (p : Fin 512) (k : Fin 2048) :
    matmul dot_S512x128_S2048x128_S512x2048_1_1_0_0_n_n none a w (constant (F := Ideal) S512x2048 .f32 0x00000000#32) (ix2 p k)
      = ∑ d : Fin 128, a (ix2 p d) * w (ix2 k d) := by
  refine (Ideal.matmul_constant_zero_apply dot_S512x128_S2048x128_S512x2048_1_1_0_0_n_n none a w (ix2 p k)).trans ?_
  rw [← Equiv.sum_comp (ValueIdx.contrEquiv1 dot_S512x128_S2048x128_S512x2048_1_1_0_0_n_n 128 rfl rfl).symm]
  refine Finset.sum_congr rfl fun d _ => ?_
  have hk := ValueIdx.contrEquiv1_symm_val dot_S512x128_S2048x128_S512x2048_1_1_0_0_n_n 128 rfl rfl d
  have el : dot_S512x128_S2048x128_S512x2048_1_1_0_0_n_n.lhsIdx (ix2 p k)
      ((ValueIdx.contrEquiv1 dot_S512x128_S2048x128_S512x2048_1_1_0_0_n_n 128 rfl rfl).symm d) = ix2 p d :=
    funext fun ax => Fin.ext (by
      match ax with
      | ⟨0, _⟩ => exact s_lhs0 _ _
      | ⟨1, _⟩ => exact (s_lhs1 _ _).trans hk)
  have er : dot_S512x128_S2048x128_S512x2048_1_1_0_0_n_n.rhsIdx (ix2 p k)
      ((ValueIdx.contrEquiv1 dot_S512x128_S2048x128_S512x2048_1_1_0_0_n_n 128 rfl rfl).symm d) = ix2 k d :=
    funext fun ax => Fin.ext (by
      match ax with
      | ⟨0, _⟩ => exact s_rhs0 _ _
      | ⟨1, _⟩ => exact (s_rhs1 _ _).trans hk)
  rw [el, er]

/-! ## Weights (512 × 2048) times values (2048 × 128) -/

theorem o_lhs0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
theorem o_lhs1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem o_rhs0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem o_rhs1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- Entry (p, d) of the context product: weight row p against column d of the values. -/
theorem o_apply (a : FVec Ideal S512x2048 .bf16) (w : FVec Ideal S2048x128 .bf16) (p : Fin 512) (d : Fin 128) :
    matmul dot_S512x2048_S2048x128_S512x128_1_0_0_1_n_n none a w (constant (F := Ideal) S512x128 .f32 0x00000000#32) (ix2 p d)
      = ∑ k : Fin 2048, a (ix2 p k) * w (ix2 k d) := by
  refine (Ideal.matmul_constant_zero_apply dot_S512x2048_S2048x128_S512x128_1_0_0_1_n_n none a w (ix2 p d)).trans ?_
  rw [← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p d)
      ((ValueIdx.contrEquiv1 dot_S512x2048_S2048x128_S512x128_1_0_0_1_n_n 2048 rfl rfl).symm k) = ix2 p k :=
    funext fun ax => Fin.ext (by
      match ax with
      | ⟨0, _⟩ => exact o_lhs0 _ _
      | ⟨1, _⟩ => exact (o_lhs1 _ _).trans hk)
  have er : dot_S512x2048_S2048x128_S512x128_1_0_0_1_n_n.rhsIdx (ix2 p d)
      ((ValueIdx.contrEquiv1 dot_S512x2048_S2048x128_S512x128_1_0_0_1_n_n 2048 rfl rfl).symm k) = ix2 k d :=
    funext fun ax => Fin.ext (by
      match ax with
      | ⟨0, _⟩ => exact (o_rhs0 _ _).trans hk
      | ⟨1, _⟩ => exact o_rhs1 _ _)
  rw [el, er]

end Cert.KernelIdeal.MatMul

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Tile.lean ====
/-
  One run of the body, read entry by entry as the row operations of the specification.

  The body computes, from a 512-row query tile, `W`, and a 2048-row key matrix: the query projection of the tile;
  its scaled inner products with the key rows; and, row by row, the softmax of those scores: the row's maximum is a
  lane reduction laid out as a column and repeated across the row, the row's sum likewise. The weights block is that
  tile; the context block is the tile times the value matrix. The keys and values themselves are the two halves, by
  columns, of one product of the `Lt` block with the concatenated weight.

  The softmax is split into its stages (the column of maxima, the exponentials, the column of sums), each read at an
  entry by one short step, so that the whole tile reads as `softmaxRow` of its row of scores.
-/
import proofs.«155520_j72541997629749_2_alg».proof.Proof.Gen.KernelIdeal.Skeleton
import proofs.«155520_j72541997629749_2_alg».proof.Proof.MatMul
import proofs.«155520_j72541997629749_2_alg».proof.Proof.Spec
import proofs.«155520_j72541997629749_2_alg».proof.Proof.LibColumnLayout
import Idealize.ShloMosaic.Lib.ValueLayout
import Idealize.ShloMosaic.Lib.Pipeline.Value

noncomputable section

namespace Cert.KernelIdeal.Tile

open Cert.KernelIdeal Cert.KernelIdeal.Gen Cert.Attn Idealize.ShloMosaic Idealize.ShloMosaic.ValueIdx

/-! ## The softmax of a tile of scores, stage by stage -/

/-- Each row's maximum, repeated across the row. -/
def maxCol (s : FVec Ideal S512x2048 .f32) : FVec Ideal S512x2048 .f32 :=
  broadcastTo S512x2048
    (shapeCast S512x1 (multiReduction .maximumf [1] S512 s 0xFF800000#32 reduces_S512x2048_S512 (.inl rfl) rfl) shapeCasts_S512_S512x1)
    broadcasts_S512x1_S512x2048

/-- The exponentials of the scores less their row's maximum. -/
def expTile (s : FVec Ideal S512x2048 .f32) : FVec Ideal S512x2048 .f32 := exp (subf s (maxCol s))

/-- Each row's sum, repeated across the row. -/
def sumCol (e : FVec Ideal S512x2048 .f32) : FVec Ideal S512x2048 .f32 :=
  broadcastTo S512x2048
    (shapeCast S512x1 (multiReduction .add [1] S512 e 0x00000000#32 reduces_S512x2048_S512 (.inl rfl) rfl) shapeCasts_S512_S512x1)
    broadcasts_S512x1_S512x2048

/-- The softmax of a tile, row by row. -/
def softmaxTile (s : FVec Ideal S512x2048 .f32) : FVec Ideal S512x2048 .f32 := divf (expTile s) (sumCol (expTile s))

theorem maxCol_at (s : FVec Ideal S512x2048 .f32) (p : Fin 512) (c : Fin 2048) :
    maxCol s (ix2 p c) = rowMax (fun k => s (ix2 p k)) := by
  unfold maxCol
  refine (Cert.ColumnLayout.broadcastTo_a1_ab_apply _ broadcasts_S512x1_S512x2048 p c).trans ?_
  refine (Cert.ColumnLayout.shapeCast_a_a1_apply _ shapeCasts_S512_S512x1 p (0 : Fin 1)).trans ?_
  refine (Ideal.multiReduction_maximumf_single s 0xFF800000#32 reduces_S512x2048_S512 (.inl rfl) rfl (ix1 p)).trans ?_
  unfold rowMax
  refine Finset.fold_congr fun k _ => ?_
  exact congrArg s (funext fun a => Fin.ext (by match a with | ⟨0, _⟩ => rfl | ⟨1, _⟩ => rfl))

theorem expTile_at (s : FVec Ideal S512x2048 .f32) (p : Fin 512) (k : Fin 2048) :
    expTile s (ix2 p k) = expRow (fun k' => s (ix2 p k')) k := by
  show Ideal.exp (s (ix2 p k) - maxCol s (ix2 p k)) = _
  rw [maxCol_at]
  rfl

theorem sumCol_at (e : FVec Ideal S512x2048 .f32) (p : Fin 512) (c : Fin 2048) :
    sumCol e (ix2 p c) = ∑ k : Fin 2048, e (ix2 p k) := by
  unfold sumCol
  refine (Cert.ColumnLayout.broadcastTo_a1_ab_apply _ broadcasts_S512x1_S512x2048 p c).trans ?_
  refine (Cert.ColumnLayout.shapeCast_a_a1_apply _ shapeCasts_S512_S512x1 p (0 : Fin 1)).trans ?_
  refine (Ideal.multiReduction_add_single e 0x00000000#32 reduces_S512x2048_S512 (.inl rfl) rfl (ix1 p)).trans ?_
  exact Finset.sum_congr rfl fun k _ =>
    congrArg e (funext fun a => Fin.ext (by match a with | ⟨0, _⟩ => rfl | ⟨1, _⟩ => rfl))

/-- Entry (p, k) of the softmax of a tile is the softmax of row p, at k. -/
theorem softmaxTile_at (s : FVec Ideal S512x2048 .f32) (p : Fin 512) (k : Fin 2048) :
    softmaxTile s (ix2 p k) = softmaxRow (fun k' => s (ix2 p k')) k := by
  show Ideal.div (expTile s (ix2 p k)) (sumCol (expTile s) (ix2 p k)) = _
  rw [sumCol_at, expTile_at]
  unfold softmaxRow
  exact congrArg (Ideal.div _) (Finset.sum_congr rfl fun k' _ => expTile_at s p k')

/-! ## The query tile and the tile of scores -/

/-- The query projection of a 512-row tile. -/
def queryTile (x1 : FVec Ideal S1x512x512 .f32) (x3 : FVec Ideal S512x128 .f32) : FVec Ideal S512x128 .f32 :=
  matmul dot_S512x512_S512x128_S512x128_1_0_0_1_n_n none
    (truncf .bf16 (shapeCast S512x512 x1 shapeCasts_S1x512x512_S512x512) bitsLt_bf16_f32) (truncf .bf16 x3 bitsLt_bf16_f32)
    (constant S512x128 .f32 0x00000000#32)

/-- Its scaled inner products with the rows of a key matrix. -/
def scoreTile (x1 : FVec Ideal S1x512x512 .f32) (x3 : FVec Ideal S512x128 .f32) (K : FVec Ideal S2048x128 .bf16) :
    FVec Ideal S512x2048 .f32 :=
  mulf (matmul dot_S512x128_S2048x128_S512x2048_1_1_0_0_n_n none (truncf .bf16 (queryTile x1 x3) bitsLt_bf16_f32) K
      (constant S512x2048 .f32 0x00000000#32))
    (broadcast S512x2048 (Scalar.ofBits .f32 0x3DB504F3#32))

/-- Row p of the tile's queries, as a function of the feature. -/
def queryRow (x1 : FVec Ideal S1x512x512 .f32) (x3 : FVec Ideal S512x128 .f32) (p : Fin 512) (d : Fin 128) : EReal :=
  ∑ h : Fin 512, x1 (ix3 (0 : Fin 1) p h) * x3 (ix2 h d)

theorem queryTile_at (x1 : FVec Ideal S1x512x512 .f32) (x3 : FVec Ideal S512x128 .f32) (p : Fin 512) (d : Fin 128) :
    queryTile x1 x3 (ix2 p d) = queryRow x1 x3 p d := by
  unfold queryTile queryRow
  refine (MatMul.q_apply _ _ p d).trans ?_
  exact Finset.sum_congr rfl fun h _ =>
    congrArg (fun z => z * x3 (ix2 h d)) (shapeCast_1ab_ab_apply x1 shapeCasts_S1x512x512_S512x512 p h)

theorem scoreTile_at (x1 : FVec Ideal S1x512x512 .f32) (x3 : FVec Ideal S512x128 .f32) (K : FVec Ideal S2048x128 .bf16)
    (p : Fin 512) (k : Fin 2048) :
    scoreTile x1 x3 K (ix2 p k) = scoreRow (queryRow x1 x3 p) (fun k' d => K (ix2 k' d)) k := by
  unfold scoreTile scoreRow
  refine (congrArg (· * scale) (MatMul.s_apply _ K p k)).trans ?_
  exact congrArg (· * scale) (Finset.sum_congr rfl fun d _ => congrArg (fun z => z * K (ix2 k d)) (queryTile_at x1 x3 p d))

/-- The printed softmax payload is the softmax of the tile of scores. -/
theorem pay4_eq (x1 : FVec Ideal S1x512x512 .f32) (x3 : FVec Ideal S512x128 .f32) (K : FVec Ideal S2048x128 .bf16) :
    k0_pay4 (F := Ideal) x1 x3 K = softmaxTile (scoreTile x1 x3 K) := rfl

theorem pay4_at (x1 : FVec Ideal S1x512x512 .f32) (x3 : FVec Ideal S512x128 .f32) (K : FVec Ideal S2048x128 .bf16)
    (p : Fin 512) (k : Fin 2048) :
    k0_pay4 (F := Ideal) x1 x3 K (ix2 p k) = softmaxRow (scoreRow (queryRow x1 x3 p) (fun k' d => K (ix2 k' d))) k := by
  rw [pay4_eq, softmaxTile_at]
  exact congrArg (fun s => softmaxRow s k) (funext fun k' => scoreTile_at x1 x3 K p k')

/-! ## The two outputs of a run -/

/-- The weights block at (p, k): the softmax of query row p's scores against the keys, at k. -/
theorem pay5_at (x1 : FVec Ideal S1x512x512 .f32) (x3 : FVec Ideal S512x128 .f32) (K : FVec Ideal S2048x128 .bf16)
    (p : Fin 512) (k : Fin 2048) :
    k0_pay5 (F := Ideal) x1 x3 K (ix3 (0 : Fin 1) p k)
      = softmaxRow (scoreRow (queryRow x1 x3 p) (fun k' d => K (ix2 k' d))) k := by
  unfold k0_pay5
  refine (shapeCast_ab_1ab_apply _ shapeCasts_S512x2048_S1x512x2048 (0 : Fin 1) p k).trans ?_
  exact pay4_at x1 x3 K p k

/-- The context block at (p, d): those weights applied to column d of the values. -/
theorem pay6_at (x1 : FVec Ideal S1x512x512 .f32) (x3 : FVec Ideal S512x128 .f32) (K V : FVec Ideal S2048x128 .bf16)
    (p : Fin 512) (d : Fin 128) :
    k0_pay6 (F := Ideal) x1 x3 K V (ix3 (0 : Fin 1) p d)
      = attendRow (softmaxRow (scoreRow (queryRow x1 x3 p) (fun k' d' => K (ix2 k' d')))) (fun k' d' => V (ix2 k' d')) d := by
  unfold k0_pay6
  refine (shapeCast_ab_1ab_apply _ shapeCasts_S512x128_S1x512x128 (0 : Fin 1) p d).trans ?_
  refine (MatMul.o_apply _ V p d).trans ?_
  unfold attendRow
  exact Finset.sum_congr rfl fun k _ => congrArg (fun z => z * V (ix2 k d)) (pay4_at x1 x3 K p k)

/-! ## The keys and values a first tile stores -/

/-- Column d of the left half of the concatenated weight. -/
abbrev lo (d : Fin 128) : Fin 256 := ⟨d.val, by have := d.isLt; omega⟩
/-- Column d of its right half. -/
abbrev hi (d : Fin 128) : Fin 256 := ⟨128 + d.val, by have := d.isLt; omega⟩

theorem pay1_at (x0 : FVec Ideal S1x2048x512 .f32) (x2 : FVec Ideal S512x256 .f32) (k : Fin 2048) (e : Fin 256) :
    k0_pay1 (F := Ideal) x0 x2 (ix2 k e) = ∑ l : Fin 512, x0 (ix3 (0 : Fin 1) k l) * x2 (ix2 l e) := by
  unfold k0_pay1
  refine (MatMul.kv_apply _ _ k e).trans ?_
  exact Finset.sum_congr rfl fun l _ =>
    congrArg₂ (· * ·) (shapeCast_1ab_ab_apply x0 shapeCasts_S1x2048x512_S2048x512 k l)
      (congrFun (shapeCast_self x2 shapeCasts_S512x256_S512x256) (ix2 l e))

/-- The stored keys at (k, d): row k of the `Lt` block through column d of the weight's left half. -/
theorem pay2_at (x0 : FVec Ideal S1x2048x512 .f32) (x2 : FVec Ideal S512x256 .f32) (k : Fin 2048) (d : Fin 128) :
    k0_pay2 (F := Ideal) x0 x2 (ix2 k d) = ∑ l : Fin 512, x0 (ix3 (0 : Fin 1) k l) * x2 (ix2 l (lo d)) := by
  unfold k0_pay2
  refine (congrFun (shapeCast_self _ shapeCasts_S2048x128_S2048x128) (ix2 k d)).trans ?_
  refine (slice2_axis1_apply 0 (k0_pay1 (F := Ideal) x0 x2) slices_S2048x256_o0_0_S2048x128 k d (lo d) (Nat.zero_add _).symm).trans ?_
  exact pay1_at x0 x2 k (lo d)

/-- The stored values at (k, d): the same row through column d of the right half. -/
theorem pay3_at (x0 : FVec Ideal S1x2048x512 .f32) (x2 : FVec Ideal S512x256 .f32) (k : Fin 2048) (d : Fin 128) :
    k0_pay3 (F := Ideal) x0 x2 (ix2 k d) = ∑ l : Fin 512, x0 (ix3 (0 : Fin 1) k l) * x2 (ix2 l (hi d)) := by
  unfold k0_pay3
  refine (congrFun (shapeCast_self _ shapeCasts_S2048x128_S2048x128) (ix2 k d)).trans ?_
  refine (slice2_axis1_apply 128 (k0_pay1 (F := Ideal) x0 x2) slices_S2048x256_o0_128_S2048x128 k d (hi d) rfl).trans ?_
  exact pay1_at x0 x2 k (hi d)

end Cert.KernelIdeal.Tile

end
-- ==== Proof.Blocks.lean ====
/-
  The blocks the body is given, as entries of the four argument arrays.

  The grid has 64 points, batch-major: point t is query tile t mod 4 of batch t / 4. At point t the `Lt` window
  holds the whole of batch t / 4 (it does not move while the query tile advances), the `rnn_ht` window holds rows
  512 · (t mod 4) … + 511 of that batch, and the two weight windows hold the whole of their arrays. The first weight
  array is not an argument: it is the two slabs of `kernel`, each reshaped to a matrix, set side by side along the
  columns, so its left 128 columns read slab 0 and its right 128 columns read slab 1.
-/
import proofs.«155520_j72541997629749_2_alg».proof.Proof.Gen.KernelIdeal.Frame
import proofs.«155520_j72541997629749_2_alg».proof.Proof.Tile
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Cert.KernelIdeal.Tile Idealize.ShloMosaic Idealize.ShloMosaic.TcCoe
  Idealize.ShloMosaic.ValueIdx Idealize.SL.Sem

variable (m : (ℓ : Loc nD τ sig) → Buf (Elt Ideal) ℓ)

/-! ## The arguments, and where a point sits in them -/

abbrev aLt (c : Dev nD) : FVec Ideal S16x2048x512 .f32 := m ((c : Thread nD τ).loc main_arg0)
abbrev aRnn (c : Dev nD) : FVec Ideal S16x2048x512 .f32 := m ((c : Thread nD τ).loc main_arg1)
abbrev aKern (c : Dev nD) : FVec Ideal S2x512x128 .f32 := m ((c : Thread nD τ).loc main_arg2)
abbrev aW (c : Dev nD) : FVec Ideal S512x128 .f32 := m ((c : Thread nD τ).loc main_arg3)

theorem tval_lt (t : Fin cfg0.N) : t.val < 64 := lt_of_lt_of_eq t.isLt (show cfg0.N = 64 from N_0)

/-- The batch of point t. -/
abbrev batchOf (t : Fin cfg0.N) : Fin 16 := ⟨t.val / 4, by have := tval_lt t; omega⟩

/-- Row p of point t's query tile, as a row of its batch. -/
abbrev rowOf (t : Fin cfg0.N) (p : Fin 512) : Fin 2048 := ⟨512 * (t.val % 4) + p.val, by have := p.isLt; omega⟩

/-- The six windows' block indices at every point, decided once over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-! ## The three argument windows -/

/-- The `Lt` block at point t is batch t / 4, whole. -/
theorem lt_block (c : Dev nD) (t : Fin cfg0.N) (k : Fin 2048) (l : Fin 512) :
    (iblk m c 0 t : FVec Ideal S1x2048x512 .f32) (ix3 (0 : Fin 1) k l) = aLt m c (ix3 (batchOf t) k l) := by
  obtain ⟨e0, e1, e2, -⟩ := idx_facts t
  unfold iblk
  show V m c main_arg0 (((cfg0.win 0).blk t).view.emb (ix3 (0 : Fin 1) k l)) = _
  rw [V_main_arg0]
  refine congrArg (m ((c : Thread nD τ).loc main_arg0)) (funext fun a => Fin.ext ?_)
  match a with
  | ⟨0, _⟩ => show win0_0.index t (0 : Fin 3) * 1 + 1 * 0 = t.val / 4; omega
  | ⟨1, _⟩ => show win0_0.index t (1 : Fin 3) * 2048 + 1 * k.val = k.val; omega
  | ⟨2, _⟩ => show win0_0.index t (2 : Fin 3) * 512 + 1 * l.val = l.val; omega

/-- The `rnn_ht` block at point t is its batch's rows 512 · (t mod 4) onwards. -/
theorem rnn_block (c : Dev nD) (t : Fin cfg0.N) (p : Fin 512) (h : Fin 512) :
    (iblk m c 1 t : FVec Ideal S1x512x512 .f32) (ix3 (0 : Fin 1) p h) = aRnn m c (ix3 (batchOf t) (rowOf t p) h) := by
  obtain ⟨-, -, -, e0, e1, e2, -⟩ := idx_facts t
  unfold iblk
  show V m c main_arg1 (((cfg0.win 1).blk t).view.emb (ix3 (0 : Fin 1) p h)) = _
  rw [V_main_arg1]
  refine congrArg (m ((c : Thread nD τ).loc main_arg1)) (funext fun a => Fin.ext ?_)
  match a with
  | ⟨0, _⟩ => show win0_1.index t (0 : Fin 3) * 1 + 1 * 0 = t.val / 4; omega
  | ⟨1, _⟩ => show win0_1.index t (1 : Fin 3) * 512 + 1 * p.val = 512 * (t.val % 4) + p.val; omega
  | ⟨2, _⟩ => show win0_1.index t (2 : Fin 3) * 512 + 1 * h.val = h.val; omega

/-- The `W` block is `W`, at every point. -/
theorem w_block (c : Dev nD) (t : Fin cfg0.N) (h : Fin 512) (d : Fin 128) :
    (iblk m c 3 t : FVec Ideal S512x128 .f32) (ix2 h d) = aW m c (ix2 h d) := by
  obtain ⟨-, -, -, -, -, -, -, -, e0, e1, -⟩ := idx_facts t
  unfold iblk
  show V m c main_arg3 (((cfg0.win 3).blk t).view.emb (ix2 h d)) = _
  rw [V_main_arg3]
  refine congrArg (m ((c : Thread nD τ).loc main_arg3)) (funext fun a => Fin.ext ?_)
  match a with
  | ⟨0, _⟩ => show win0_3.index t (0 : Fin 2) * 512 + 1 * h.val = h.val; omega
  | ⟨1, _⟩ => show win0_3.index t (1 : Fin 2) * 128 + 1 * d.val = d.val; omega

/-! ## The concatenated weight -/

/-- What the host operations before the launch leave in the concatenated weight's array. -/
theorem wcat_eq (c : Dev nD) : (V m c main_v4 : FVec Ideal S512x256 .f32)
    = concatenate S512x256 1
        [⟨S512x128, shapeCast S512x128 (extractStridedSlice S1x512x128 ![0, 0, 0] (aKern m c) slices_S2x512x128_S1x512x128_0_0_0) shapeCasts_S1x512x128_S512x128⟩,
         ⟨S512x128, shapeCast S512x128 (extractStridedSlice S1x512x128 ![1, 0, 0] (aKern m c) slices_S2x512x128_S1x512x128_1_0_0) shapeCasts_S1x512x128_S512x128⟩]
        concatenates_S512x128_S512x128_S512x256_d1 := by
  dsimp only [V, hostOps0]; after_results; rfl

/-- Its left 128 columns are slab 0 of `kernel`. -/
theorem wcat_lo (c : Dev nD) (l : Fin 512) (d : Fin 128) :
    (V m c main_v4 : FVec Ideal S512x256 .f32) (ix2 l (lo d)) = aKern m c (ix3 (0 : Fin 2) l d) := by
  rw [wcat_eq]
  refine (concatenate_pair_apply_left 1 _ _ concatenates_S512x128_S512x128_S512x256_d1 (ix2 l (lo d)) rfl (ix2 l d)
    (fun b => by match b with | ⟨0, _⟩ => rfl | ⟨1, _⟩ => rfl)).trans ?_
  refine (shapeCast_1ab_ab_apply _ shapeCasts_S1x512x128_S512x128 l d).trans ?_
  exact extractStridedSlice_apply ![0, 0, 0] (aKern m c) slices_S2x512x128_S1x512x128_0_0_0 (ix3 (0 : Fin 1) l d) (ix3 (0 : Fin 2) l d)
    (fun a => by
      match a with
      | ⟨0, _⟩ => rfl
      | ⟨1, _⟩ => show l.val = 0 + l.val; omega
      | ⟨2, _⟩ => show d.val = 0 + d.val; omega)

/-- Its right 128 columns are slab 1. -/
theorem wcat_hi (c : Dev nD) (l : Fin 512) (d : Fin 128) :
    (V m c main_v4 : FVec Ideal S512x256 .f32) (ix2 l (hi d)) = aKern m c (ix3 (1 : Fin 2) l d) := by
  rw [wcat_eq]
  refine (concatenate_pair_apply_right 1 _ _ concatenates_S512x128_S512x128_S512x256_d1 (ix2 l (hi d)) rfl rfl (ix2 l d)
    (fun b hb => by
      match b with
      | ⟨0, _⟩ => rfl
      | ⟨1, _⟩ => exact absurd rfl hb)
    (by show d.val + 128 = 128 + d.val; omega)).trans ?_
  refine (shapeCast_1ab_ab_apply _ shapeCasts_S1x512x128_S512x128 l d).trans ?_
  exact extractStridedSlice_apply ![1, 0, 0] (aKern m c) slices_S2x512x128_S1x512x128_1_0_0 (ix3 (0 : Fin 1) l d) (ix3 (1 : Fin 2) l d)
    (fun a => by
      match a with
      | ⟨0, _⟩ => rfl
      | ⟨1, _⟩ => show l.val = 0 + l.val; omega
      | ⟨2, _⟩ => show d.val = 0 + d.val; omega)

/-- The concatenated weight's block is the whole of its array, at every point. -/
theorem wcat_block (c : Dev nD) (t : Fin cfg0.N) (l : Fin 512) (e : Fin 256) :
    (iblk m c 2 t : FVec Ideal S512x256 .f32) (ix2 l e) = (V m c main_v4 : FVec Ideal S512x256 .f32) (ix2 l e) := by
  obtain ⟨-, -, -, -, -, -, e0, e1, -⟩ := idx_facts t
  unfold iblk
  show V m c main_v4 (((cfg0.win 2).blk t).view.emb (ix2 l e)) = _
  refine congrArg (V m c main_v4) (funext fun a => Fin.ext ?_)
  match a with
  | ⟨0, _⟩ => show win0_2.index t (0 : Fin 2) * 512 + 1 * l.val = l.val; omega
  | ⟨1, _⟩ => show win0_2.index t (1 : Fin 2) * 256 + 1 * e.val = e.val; omega

/-! ## The blocks that do not move -/

/-- Within a batch the `Lt` block is the same at every query tile. -/
theorem lt_block_succ (c : Dev nD) (n : ℕ) (hn : n + 1 < cfg0.N) (h0 : ¬(n + 1) % 4 = 0) :
    iblk m c 0 ⟨n + 1, hn⟩ = iblk m c 0 ⟨n, Nat.lt_of_succ_lt hn⟩ := by
  obtain ⟨e0, e1, e2, -⟩ := idx_facts ⟨n + 1, hn⟩
  obtain ⟨f0, f1, f2, -⟩ := idx_facts ⟨n, Nat.lt_of_succ_lt hn⟩
  funext j
  unfold iblk
  show V m c main_arg0 (((cfg0.win 0).blk ⟨n + 1, hn⟩).view.emb j) = V m c main_arg0 (((cfg0.win 0).blk ⟨n, Nat.lt_of_succ_lt hn⟩).view.emb j)
  refine congrArg (V m c main_arg0) (funext fun a => Fin.ext ?_)
  have hN := tval_lt ⟨n + 1, hn⟩
  match a with
  | ⟨0, _⟩ =>
    show win0_0.index ⟨n + 1, hn⟩ (0 : Fin 3) * 1 + 1 * (j 0).val = win0_0.index ⟨n, Nat.lt_of_succ_lt hn⟩ (0 : Fin 3) * 1 + 1 * (j 0).val
    dsimp only at e0 f0 hN; omega
  | ⟨1, _⟩ =>
    show win0_0.index ⟨n + 1, hn⟩ (1 : Fin 3) * 2048 + 1 * (j 1).val = win0_0.index ⟨n, Nat.lt_of_succ_lt hn⟩ (1 : Fin 3) * 2048 + 1 * (j 1).val
    omega
  | ⟨2, _⟩ =>
    show win0_0.index ⟨n + 1, hn⟩ (2 : Fin 3) * 512 + 1 * (j 2).val = win0_0.index ⟨n, Nat.lt_of_succ_lt hn⟩ (2 : Fin 3) * 512 + 1 * (j 2).val
    omega

/-- The concatenated weight's block is the same at every point. -/
theorem wcat_block_succ (c : Dev nD) (n : ℕ) (hn : n + 1 < cfg0.N) :
    iblk m c 2 ⟨n + 1, hn⟩ = iblk m c 2 ⟨n, Nat.lt_of_succ_lt hn⟩ := by
  obtain ⟨-, -, -, -, -, -, e0, e1, -⟩ := idx_facts ⟨n + 1, hn⟩
  obtain ⟨-, -, -, -, -, -, f0, f1, -⟩ := idx_facts ⟨n, Nat.lt_of_succ_lt hn⟩
  funext j
  unfold iblk
  show V m c main_v4 (((cfg0.win 2).blk ⟨n + 1, hn⟩).view.emb j) = V m c main_v4 (((cfg0.win 2).blk ⟨n, Nat.lt_of_succ_lt hn⟩).view.emb j)
  refine congrArg (V m c main_v4) (funext fun a => Fin.ext ?_)
  match a with
  | ⟨0, _⟩ =>
    show win0_2.index ⟨n + 1, hn⟩ (0 : Fin 2) * 512 + 1 * (j 0).val = win0_2.index ⟨n, Nat.lt_of_succ_lt hn⟩ (0 : Fin 2) * 512 + 1 * (j 0).val
    omega
  | ⟨1, _⟩ =>
    show win0_2.index ⟨n + 1, hn⟩ (1 : Fin 2) * 256 + 1 * (j 1).val = win0_2.index ⟨n, Nat.lt_of_succ_lt hn⟩ (1 : Fin 2) * 256 + 1 * (j 1).val
    omega

end Cert.KernelIdeal.Blocks

end
-- ==== Proof.Carried.lean ====
/-
  The keys and values the body carries from one query tile to the next, and what each point therefore writes.

  Claim: after any point, the carried key buffer holds the key projection of THAT point's own `Lt` block through
  that point's own weight block, and the carried value buffer the value projection of the same. At a first tile the
  body has just stored exactly that. At a later tile it stores nothing, so the buffers hold what the previous point
  left, which by induction is the projection of the previous point's blocks; and those are this point's blocks,
  because the `Lt` window does not move within a batch and the weight window never moves.

  So at EVERY point the two outputs are one and the same function of the point's four blocks: the attention of the
  query tile against the projections of the `Lt` block. Read entry by entry through the block lemmas, that is the
  specification at the batch and rows the point stands for.
-/
import proofs.«155520_j72541997629749_2_alg».proof.Proof.Gen.KernelIdeal.Frame
import proofs.«155520_j72541997629749_2_alg».proof.Proof.Pieces
import proofs.«155520_j72541997629749_2_alg».proof.Proof.Tile
import proofs.«155520_j72541997629749_2_alg».proof.Proof.Blocks
import proofs.«155520_j72541997629749_2_alg».proof.Proof.Spec

noncomputable section

namespace Cert.KernelIdeal.Carried

open Cert.KernelIdeal Cert.KernelIdeal.Gen Cert.KernelIdeal.Tile Cert.KernelIdeal.Blocks Cert.Attn
  Idealize.ShloMosaic Idealize.ShloMosaic.TcCoe Idealize.ShloMosaic.ValueIdx Idealize.SL.Sem

variable (m : (ℓ : Loc nD τ sig) → Buf (Elt Ideal) ℓ)

/-! ## The carried buffers after each point -/

/-- A first tile leaves the projections of its own blocks. -/
theorem scratch_first (c : Dev nD) (t : Fin cfg0.N) (h0 : t.val % 4 = 0) :
    (outsAt0 m c t.val t.isLt).2.2.1 = k0_pay2 (iblk m c 0 t) (iblk m c 2 t)
    ∧ (outsAt0 m c t.val t.isLt).2.2.2 = k0_pay3 (iblk m c 0 t) (iblk m c 2 t) := by
  rw [outsAt0_A m c t h0]
  dsimp only
  exact ⟨Pieces.keys_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
    Pieces.vals_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)⟩

/-- A later tile leaves what the point before left. -/
theorem scratch_later (c : Dev nD) (t : Fin cfg0.N) (h0 : ¬t.val % 4 = 0) :
    (outsAt0 m c t.val t.isLt).2.2.1 = (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0]
  exact ⟨rfl, rfl⟩

/-- After any point the carried buffers hold the projections of that point's own blocks. -/
theorem scratch_inv (c : Dev nD) : ∀ (n : ℕ) (hn : n < cfg0.N),
    (outsAt0 m c n hn).2.2.1 = k0_pay2 (iblk m c 0 ⟨n, hn⟩) (iblk m c 2 ⟨n, hn⟩)
    ∧ (outsAt0 m c n hn).2.2.2 = k0_pay3 (iblk m c 0 ⟨n, hn⟩) (iblk m c 2 ⟨n, hn⟩) := by
  intro n
  induction n with
  | zero => intro hn; exact scratch_first m c ⟨0, hn⟩ rfl
  | succ n ih =>
    intro hn
    by_cases h0 : (n + 1) % 4 = 0
    · exact scratch_first m c ⟨n + 1, hn⟩ h0
    · have hl := scratch_later m c ⟨n + 1, hn⟩ h0
      have hp := ih (Nat.lt_of_succ_lt hn)
      rw [lt_block_succ m c n hn h0, wcat_block_succ m c n hn]
      exact ⟨hl.1.trans hp.1, hl.2.trans hp.2⟩

/-! ## What every point writes, as a function of its own four blocks -/

/-- The weights block. -/
theorem wts_eq (c : Dev nD) (t : Fin cfg0.N) :
    (outsAt0 m c t.val t.isLt).2.1 = k0_pay5 (iblk m c 1 t) (iblk m c 3 t) (k0_pay2 (iblk m c 0 t) (iblk m c 2 t)) := by
  by_cases h0 : t.val % 4 = 0
  · rw [outsAt0_A m c t h0]
    dsimp only
    exact Pieces.weights_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
  · have hs := scratch_inv m c t.val t.isLt
    have hl := scratch_later m c t h0
    rw [outsAt0_B m c t h0]
    dsimp only
    refine (Pieces.weights_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    exact congrArg (k0_pay5 (iblk m c 1 t) (iblk m c 3 t)) (hl.1.symm.trans hs.1)

/-- The context block. -/
theorem ctx_eq (c : Dev nD) (t : Fin cfg0.N) :
    (outsAt0 m c t.val t.isLt).1
      = k0_pay6 (iblk m c 1 t) (iblk m c 3 t) (k0_pay2 (iblk m c 0 t) (iblk m c 2 t)) (k0_pay3 (iblk m c 0 t) (iblk m c 2 t)) := by
  by_cases h0 : t.val % 4 = 0
  · rw [outsAt0_A m c t h0]
    dsimp only
    exact Pieces.context_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
  · have hs := scratch_inv m c t.val t.isLt
    have hl := scratch_later m c t h0
    rw [outsAt0_B m c t h0]
    dsimp only
    refine (Pieces.context_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    exact congrArg₂ (k0_pay6 (iblk m c 1 t) (iblk m c 3 t)) (hl.1.symm.trans hs.1) (hl.2.symm.trans hs.2)

/-! ## The same, entry by entry, in the argument arrays -/

/-- The keys a point works with are the key projection of its batch. -/
theorem keys_at (c : Dev nD) (t : Fin cfg0.N) (k : Fin 2048) (d : Fin 128) :
    k0_pay2 (F := Ideal) (iblk m c 0 t) (iblk m c 2 t) (ix2 k d) = keyProj (aLt m c) (aKern m c) (batchOf t) k d := by
  refine (Tile.pay2_at (iblk m c 0 t) (iblk m c 2 t) k d).trans ?_
  unfold keyProj
  exact Finset.sum_congr rfl fun l _ =>
    congrArg₂ (· * ·) (lt_block m c t k l) ((wcat_block m c t l (lo d)).trans (wcat_lo m c l d))

/-- The values likewise. -/
theorem vals_at (c : Dev nD) (t : Fin cfg0.N) (k : Fin 2048) (d : Fin 128) :
    k0_pay3 (F := Ideal) (iblk m c 0 t) (iblk m c 2 t) (ix2 k d) = valProj (aLt m c) (aKern m c) (batchOf t) k d := by
  refine (Tile.pay3_at (iblk m c 0 t) (iblk m c 2 t) k d).trans ?_
  unfold valProj
  exact Finset.sum_congr rfl fun l _ =>
    congrArg₂ (· * ·) (lt_block m c t k l) ((wcat_block m c t l (hi d)).trans (wcat_hi m c l d))

/-- Row p of a point's query tile is query row 512 · (t mod 4) + p of its batch. -/
theorem query_at (c : Dev nD) (t : Fin cfg0.N) (p : Fin 512) :
    queryRow (iblk m c 1 t) (iblk m c 3 t) p = qryProj (aRnn m c) (aW m c) (batchOf t) (rowOf t p) := by
  funext d
  unfold queryRow qryProj
  exact Finset.sum_congr rfl fun h _ => congrArg₂ (· * ·) (rnn_block m c t p h) (w_block m c t h d)

/-- Entry (p, k) of the weights block a point writes. -/
theorem wts_at (c : Dev nD) (t : Fin cfg0.N) (p : Fin 512) (k : Fin 2048) :
    (outsAt0 m c t.val t.isLt).2.1 (ix3 (0 : Fin 1) p k)
      = weightAt (aLt m c) (aRnn m c) (aKern m c) (aW m c) (batchOf t) (rowOf t p) k := by
  rw [wts_eq m c t]
  refine (Tile.pay5_at (iblk m c 1 t) (iblk m c 3 t) (k0_pay2 (iblk m c 0 t) (iblk m c 2 t)) p k).trans ?_
  unfold weightAt
  exact congrArg₂ (fun q K => softmaxRow (scoreRow q K) k) (query_at m c t p)
    (funext fun k' => funext fun d => keys_at m c t k' d)

/-- Entry (p, d) of the context block a point writes. -/
theorem ctx_at (c : Dev nD) (t : Fin cfg0.N) (p : Fin 512) (d : Fin 128) :
    (outsAt0 m c t.val t.isLt).1 (ix3 (0 : Fin 1) p d)
      = contextAt (aLt m c) (aRnn m c) (aKern m c) (aW m c) (batchOf t) (rowOf t p) d := by
  rw [ctx_eq m c t]
  refine (Tile.pay6_at (iblk m c 1 t) (iblk m c 3 t) (k0_pay2 (iblk m c 0 t) (iblk m c 2 t)) (k0_pay3 (iblk m c 0 t) (iblk m c 2 t)) p d).trans ?_
  unfold contextAt
  have hq := query_at m c t p
  have hk : (fun k' d' => k0_pay2 (F := Ideal) (iblk m c 0 t) (iblk m c 2 t) (ix2 k' d')) = keyProj (aLt m c) (aKern m c) (batchOf t) :=
    funext fun k' => funext fun d' => keys_at m c t k' d'
  have hv : (fun k' d' => k0_pay3 (F := Ideal) (iblk m c 0 t) (iblk m c 2 t) (ix2 k' d')) = valProj (aLt m c) (aKern m c) (batchOf t) :=
    funext fun k' => funext fun d' => vals_at m c t k' d'
  rw [hq, hk, hv]

end Cert.KernelIdeal.Carried

end
-- ==== Proof.Final.lean ====
/-
  From what each point writes back to the two result arrays.

  Point t writes its weights block to rows 512 · (t mod 4) … + 511 of batch t / 4 of the weights array, and its
  context block to the same rows of the context array. By the previous module each entry written is the
  specification's at the place it is written to. The 64 blocks tile each array: entry (b, r, ·) lies in the block
  of point 4 b + r / 512 and in no other. So after the run each result array is the specification's, whole.
-/
import proofs.«155520_j72541997629749_2_alg».proof.Proof.Gen.KernelIdeal.Value
import proofs.«155520_j72541997629749_2_alg».proof.Proof.Carried

noncomputable section

namespace Cert.KernelIdeal.Final

open Cert.KernelIdeal Cert.KernelIdeal.Gen Cert.KernelIdeal.Blocks Cert.KernelIdeal.Carried Cert.Attn
  Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The weights the specification assigns to this memory's arguments. -/
abbrev specWeights (c : Dev nD) : FVec Ideal S16x2048x2048 .f32 := weights (aLt m c) (aRnn m c) (aKern m c) (aW m c)

/-- The contexts it assigns to them. -/
abbrev specContexts (c : Dev nD) : FVec Ideal S16x2048x128 .f32 := contexts (aLt m c) (aRnn m c) (aKern m c) (aW m c)

/-! ## What a point writes back is its block of the specification -/

theorem flushed5_eq (c : Dev nD) (t : Fin cfg0.N) :
    (dats m 0 c).flushed 5 t = ((cfg0.win 5).blk t).view.read (Elt Ideal) (specWeights m c) := by
  obtain ⟨-, -, -, -, -, -, -, -, -, -, -, -, -, e0, e1, e2⟩ := idx_facts t
  rw [Value.flushed5]
  funext j
  obtain ⟨u, p, k, rfl⟩ : ∃ (u : Fin 1) (p : Fin 512) (k : Fin 2048), j = ix3 u p k := ⟨j 0, j 1, j 2, eq_ix3 j⟩
  obtain rfl : u = 0 := Subsingleton.elim _ _
  show (outsAt0 m c t.val t.isLt).2.1 (ix3 (0 : Fin 1) p k) = specWeights m c (((cfg0.win 5).blk t).view.emb (ix3 (0 : Fin 1) p k))
  rw [wts_at m c t p k]
  have he : ((cfg0.win 5).blk t).view.emb (ix3 (0 : Fin 1) p k) = ix3 (batchOf t) (rowOf t p) k :=
    funext fun a => Fin.ext (by
      match a with
      | ⟨0, _⟩ => show win0_5.index t (0 : Fin 3) * 1 + 1 * 0 = t.val / 4; omega
      | ⟨1, _⟩ => show win0_5.index t (1 : Fin 3) * 512 + 1 * p.val = 512 * (t.val % 4) + p.val; omega
      | ⟨2, _⟩ => show win0_5.index t (2 : Fin 3) * 2048 + 1 * k.val = k.val; omega)
  rw [he]
  rfl

theorem flushed4_eq (c : Dev nD) (t : Fin cfg0.N) :
    (dats m 0 c).flushed 4 t = ((cfg0.win 4).blk t).view.read (Elt Ideal) (specContexts m c) := by
  obtain ⟨-, -, -, -, -, -, -, -, -, -, e0, e1, e2, -⟩ := idx_facts t
  rw [Value.flushed4]
  funext j
  obtain ⟨u, p, d, rfl⟩ : ∃ (u : Fin 1) (p : Fin 512) (d : Fin 128), j = ix3 u p d := ⟨j 0, j 1, j 2, eq_ix3 j⟩
  obtain rfl : u = 0 := Subsingleton.elim _ _
  show (outsAt0 m c t.val t.isLt).1 (ix3 (0 : Fin 1) p d) = specContexts m c (((cfg0.win 4).blk t).view.emb (ix3 (0 : Fin 1) p d))
  rw [ctx_at m c t p d]
  have he : ((cfg0.win 4).blk t).view.emb (ix3 (0 : Fin 1) p d) = ix3 (batchOf t) (rowOf t p) d :=
    funext fun a => Fin.ext (by
      match a with
      | ⟨0, _⟩ => show win0_4.index t (0 : Fin 3) * 1 + 1 * 0 = t.val / 4; omega
      | ⟨1, _⟩ => show win0_4.index t (1 : Fin 3) * 512 + 1 * p.val = 512 * (t.val % 4) + p.val; omega
      | ⟨2, _⟩ => show win0_4.index t (2 : Fin 3) * 128 + 1 * d.val = d.val; omega)
  rw [he]
  rfl

/-! ## The blocks tile the arrays -/

/-- An entry is in point t's weights block iff each coordinate is in the block's range on its axis. -/
theorem mem_blk5 (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v5_1).slice (win0_5.rect t)).set ↔ _
  rw [View.set_slice_whole, Rect.mem_set_unit]
  exact Iff.rfl

theorem mem_blk4 (t : Fin cfg0.N) (i : S16x2048x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v5_0).slice (win0_4.rect t)).set ↔ _
  rw [View.set_slice_whole, Rect.mem_set_unit]
  exact Iff.rfl

/-- Entry (b, r, ·) of the weights array lies in the block of point 4 b + r / 512. -/
theorem cover5 (i : S16x2048x2048.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 2048 := (i 2).isLt
  obtain ⟨t, tv⟩ : ∃ t : Fin cfg0.N, t.val = 4 * (i 0).val + (i 1).val / 512 :=
    ⟨⟨4 * (i 0).val + (i 1).val / 512, by rw [show cfg0.N = 64 from N_0]; omega⟩, rfl⟩
  obtain ⟨-, -, -, -, -, -, -, -, -, -, -, -, -, e0, e1, e2⟩ := idx_facts t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 2048 ≤ (i 2).val ∧ (i 2).val < win0_5.index t (2 : Fin 3) * 2048 + 2048
    omega

/-- Entry (b, r, ·) of the context array likewise. -/
theorem cover4 (i : S16x2048x128.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 128 := (i 2).isLt
  obtain ⟨t, tv⟩ : ∃ t : Fin cfg0.N, t.val = 4 * (i 0).val + (i 1).val / 512 :=
    ⟨⟨4 * (i 0).val + (i 1).val / 512, by rw [show cfg0.N = 64 from N_0]; omega⟩, rfl⟩
  obtain ⟨-, -, -, -, -, -, -, -, -, -, e0, e1, e2, -⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 128 ≤ (i 2).val ∧ (i 2).val < win0_4.index t (2 : Fin 3) * 128 + 128
    omega

/-! ## The result arrays, and the run -/

theorem final5 (c : Dev nD) : (dats m 0 c).arrAt 5 cfg0.N = specWeights m c :=
  (dats m 0 c).arrAt_eq_of_cover 5 (specWeights m c) (fun t _ => flushed5_eq m c t) cover5

theorem final4 (c : Dev nD) : (dats m 0 c).arrAt 4 cfg0.N = specContexts m c :=
  (dats m 0 c).arrAt_eq_of_cover 4 (specContexts m c) (fun t _ => flushed4_eq m c t) cover4

/-- Every weakly fair execution of the idealized kernel ends with the context array and the weights array at the
    specification of the arguments it was launched with, and the arguments unchanged. -/
theorem run : θ_run defs (onTc (τ := τ) (main (F := Ideal))) ⟨m, fun _ => 0, ρ⟩ fun r => ∀ c : Dev nD,
      r.2.mem ((c : Thread nD τ).loc main_v5_0) = specContexts m c
      ∧ r.2.mem ((c : Thread nD τ).loc main_v5_1) = specWeights m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Final

end
-- ==== Proof.lean ====
/-
  A fused attention kernel against its plain reference, over the extended reals.

  Both programs take `Lt`, `rnn_ht` (16 batches of 2048 rows of 512 features), `kernel` (two 512 × 128
  weights) and `W` (512 × 128), and return the context vectors (16 × 2048 × 128) and the attention weights
  (16 × 2048 × 2048): keys and values are `Lt` through the two halves of `kernel`, queries `rnn_ht` through `W`,
  scores the query–key inner products times one fixed scale, weights their row-wise softmax, contexts the weighted sums
  of the value rows. The reference does this with whole-array products and reductions. The kernel walks a 16 × 4
  grid, one batch and one tile of 512 query rows at a time; at the first tile of a batch it computes that batch's keys
  and values with ONE product against the two weights set side by side, keeps them, and reuses them for the batch's
  other three tiles.

  Over the extended reals a change of float format is the identity, a product into a zero accumulator is a plain sum,
  and a finite sum does not depend on its order or grouping, so the two programs compute the same numbers entry by
  entry. No law used here needs the inputs to be finite: both sides apply the same operations to the same scores, and
  the only rearrangements are of finite sums. The two sides are joined at a statement of the mathematics that mentions
  neither program (Spec.lean): the reference is read operation by operation onto it (RefIsSpec.lean); the kernel's
  body is read entry by entry onto its row operations (MatMul.lean, Tile.lean), its blocks onto the argument arrays
  (Blocks.lean), the keys and values it carries between tiles by induction over the grid (Carried.lean), and its 64
  written blocks onto the two result arrays, which they tile (Final.lean).

  The idealization rewrote nothing, so `preserves` asks nothing.
-/
import proofs.«155520_j72541997629749_2_alg».proof.Defs
import proofs.«155520_j72541997629749_2_alg».proof.Proof.Gen.Kernel
import proofs.«155520_j72541997629749_2_alg».proof.Proof.Gen.Kernel.Skeleton
import proofs.«155520_j72541997629749_2_alg».proof.Proof.Gen.Kernel.Launch
import proofs.«155520_j72541997629749_2_alg».proof.Proof.Gen.Kernel.Points
import proofs.«155520_j72541997629749_2_alg».proof.Proof.Gen.Kernel.Frame
import proofs.«155520_j72541997629749_2_alg».proof.Proof.Gen.KernelIdeal
import proofs.«155520_j72541997629749_2_alg».proof.Proof.Gen.KernelIdeal.Skeleton
import proofs.«155520_j72541997629749_2_alg».proof.Proof.Gen.KernelIdeal.Launch
import proofs.«155520_j72541997629749_2_alg».proof.Proof.Gen.KernelIdeal.Points
import proofs.«155520_j72541997629749_2_alg».proof.Proof.Gen.KernelIdeal.Frame
import proofs.«155520_j72541997629749_2_alg».proof.Proof.Gen.ReferenceIdeal
import proofs.«155520_j72541997629749_2_alg».proof.Proof.Gen.Pre_finite_inputs
import proofs.«155520_j72541997629749_2_alg».proof.Proof.Gen.KernelIdeal.Value
import proofs.«155520_j72541997629749_2_alg».proof.Proof.Gen.ReferenceIdeal.Run
import proofs.«155520_j72541997629749_2_alg».proof.Proof.Gen.ReferenceIdeal.Read
import proofs.«155520_j72541997629749_2_alg».proof.Proof.RefIsSpec
import proofs.«155520_j72541997629749_2_alg».proof.Proof.Final
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and its run leaves the arguments as they were. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From memories that agree on the four arguments both programs end with the context array and the weights array
    at the specification of those arguments: the kernel by the induction over its grid, the reference operation by
    operation. -/
theorem algebraic : Cert.algebraic_KernelIdeal_ReferenceIdeal := by
  intro m ρ m' ρ' _ hagree
  refine ⟨fun c => Cert.KernelIdeal.Final.specContexts m c, fun c => Cert.KernelIdeal.Final.specWeights m c,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [Cert.ReferenceIdeal.Read.val_main_v21_eq, Cert.ReferenceIdeal.RefValue.contexts_eq,
      (hagree c).1, (hagree c).2.1, (hagree c).2.2.1, (hagree c).2.2.2]
  · refine (h c).2.1.trans ?_
    rw [Cert.ReferenceIdeal.Read.val_main_v20_eq, Cert.ReferenceIdeal.RefValue.weights_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
